-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x1024 .f32) (main_arg1 : FVec F S8192x4096 .f32) (main_arg2 : FVec F S4096x1024 .f32) (main_arg3 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩
abbrev S256x32x2x32x2 : Shape := ⟨5, ![256, 32, 2, 32, 2]⟩
abbrev S256x32x2x32 : Shape := ⟨4, ![256, 32, 2, 32]⟩
abbrev S256x32x32 : Shape := ⟨3, ![256, 32, 32]⟩
abbrev S_ : Shape := ⟨0, ![]⟩
abbrev S1x1 : Shape := ⟨2, ![1, 1]⟩
abbrev S1024x1024 : Shape := ⟨2, ![1024, 1024]⟩
abbrev S8192x1x32x32 : Shape := ⟨4, ![8192, 1, 32, 32]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S1024x4096, .f32⟩
  | .hbm, ⟨5, _⟩ => ⟨S1024x4096, .bf16⟩
  | .hbm, ⟨6, _⟩ => ⟨S1x4096, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S8192x1024, .f32⟩
  | .hbm, ⟨14, _⟩ => ⟨S8192x1x32x32, .f32⟩
  | .local _ .vmem, ⟨0, _⟩ => ⟨S256x1024, .f32⟩
  | .local _ .vmem, ⟨1, _⟩ => ⟨S256x1024, .f32⟩
  | .local _ .vmem, ⟨2, _⟩ => ⟨S256x4096, .f32⟩
  | .local _ .vmem, ⟨3, _⟩ => ⟨S256x4096, .f32⟩
  | .local _ .vmem, ⟨4, _⟩ => ⟨S1024x4096, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x32x2x32x2 : S256x4096.ShapeCasts S256x32x2x32x2
  reduces_S256x32x2x32x2_S256x32x2x32 : S256x32x2x32x2.Reduces [4] S256x32x2x32
  reduces_S256x32x2x32_S256x32x32 : S256x32x2x32.Reduces [2] S256x32x32
  shapeCasts_S256x32x32_S256x1024 : S256x32x32.ShapeCasts S256x1024
  reducesTo_S8192x1024_S_d0_1 : S8192x1024.ReducesTo [0, 1] S_
  h_S_ : 0 < S_.numel
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x1024_S8192x1x32x32 : S8192x1024.ShapeCasts S8192x1x32x32
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x4096 : Shape := ⟨2, ![8192, 4096]⟩
abbrev S4096x1024 : Shape := ⟨2, ![4096, 1024]⟩
abbrev S4096 : Shape := ⟨1, ![4096]⟩
abbrev S1x4096 : Shape := ⟨2, ![1, 4096]⟩
abbrev S8192x64x64 : Shape := ⟨3, ![8192, 64, 64]⟩
abbrev S8192x32x2x32x2 : Shape := ⟨5, ![8192, 32, 2, 32, 2]⟩
abbrev S_ : Shape := ⟨0, ![]⟩
abbrev S8192x32x32 : Shape := ⟨3, ![8192, 32, 32]⟩
abbrev S8192x1x32x32 : Shape := ⟨4, ![8192, 1, 32, 32]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x64x64, .f32⟩
  | .hbm, ⟨10, _⟩ => ⟨S8192x32x2x32x2, .f32⟩
  | .hbm, ⟨11, _⟩ => ⟨S_, .f32⟩
  | .hbm, ⟨12, _⟩ => ⟨S8192x32x32, .f32⟩
  | .hbm, ⟨13, _⟩ => ⟨S_, .f32⟩
  | .hbm, ⟨14, _⟩ => ⟨S8192x32x32, .f32⟩
  | .hbm, ⟨15, _⟩ => ⟨S8192x32x32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x32x32, .f32⟩
  | .hbm, ⟨21, _⟩ => ⟨S8192x32x32, .f32⟩
  | .hbm, ⟨22, _⟩ => ⟨S8192x1x32x32, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x64x64 : S8192x4096.ShapeCasts S8192x64x64
  shapeCasts_S8192x64x64_S8192x32x2x32x2 : S8192x64x64.ShapeCasts S8192x32x2x32x2
  reducesTo_S8192x32x2x32x2_S8192x32x32_d2_4 : S8192x32x2x32x2.ReducesTo [2, 4] S8192x32x32
  h_S_ : 0 < S_.numel
  bcast_S_S8192x32x32 : S_.BroadcastsInDim S8192x32x32 (![] : Fin 0 → Fin S8192x32x32.rank)
  reducesTo_S8192x32x32_S_d0_1_2 : S8192x32x32.ReducesTo [0, 1, 2] S_
  bcast_S8192x32x32_S8192x1x32x32_0_2_3 : S8192x32x32.BroadcastsInDim S8192x1x32x32 (![0, 2, 3] : Fin 3 → Fin S8192x1x32x32.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.PoolSpec.lean ====
/-
  The function both programs compute, on extended reals, written once.

  Inputs: an 8192 × 1024 array "x", an 8192 × 4096 array "y", a 4096 × 1024 array "w" and a vector "b" of 4096 entries.
  Row r of the linear layer is  lin r n = (sum over k of x (r, k) * w (n, k)) + b n + y (r, n).  The 4096 columns of a
  row are a 64 × 64 picture, cut into 32 × 32 windows of 2 × 2 pixels: pixel (ka, kb) of window (i, j) is column
  ((2 i + ka) * 32 + j) * 2 + kb.  The pooled value of a window is the sum of its four pixels times one quarter; the
  mean is the sum of all 8192 * 32 * 32 pooled values divided by 8388608; the result is every pooled value divided
  by the mean.

  The one law used between the two programs' spellings of the pooled value: multiplying by the float 0.25 is
  dividing by the float 4.0, on every extended real (the two literals are the exact reals 1/4 and 4).  Sums are only
  regrouped and re-indexed, which an additive commutative monoid allows, so nothing here needs a finite entry.
-/
import Idealize.ShloMosaic.Lib.ValueIdx
import Idealize.ShloMosaic.PureOps.Ideal

noncomputable section

open scoped BigOperators

namespace PoolSpec

open Idealize.ShloMosaic Idealize.ShloMosaic.ValueIdx

/-- Column of pixel (ka, kb) of window (i, j) in a row of 4096 = 64 * 64 entries. -/
def col (i : Fin 32) (ka : Fin 2) (j : Fin 32) (kb : Fin 2) : Fin 4096 :=
  ⟨((i.val * 2 + ka.val) * 32 + j.val) * 2 + kb.val, by have := i.isLt; have := ka.isLt; have := j.isLt; have := kb.isLt; omega⟩

theorem col_val (i : Fin 32) (ka : Fin 2) (j : Fin 32) (kb : Fin 2) :
    (col i ka j kb).val = ((i.val * 2 + ka.val) * 32 + j.val) * 2 + kb.val := rfl

section
variable (x : (⟨2, ![8192, 1024]⟩ : Shape).Idx → EReal) (y : (⟨2, ![8192, 4096]⟩ : Shape).Idx → EReal)
  (w : (⟨2, ![4096, 1024]⟩ : Shape).Idx → EReal) (b : (⟨1, ![4096]⟩ : Shape).Idx → EReal)

/-- The linear layer with its bias and the residual added, entry (r, n). -/
def lin (r : Fin 8192) (n : Fin 4096) : EReal :=
  (∑ k : Fin 1024, x (ix2 r k) * w (ix2 n k)) + b (ix1 n) + y (ix2 r n)

/-- The pooled value of window (i, j) of row r: the four pixels summed, times the float 0.25. -/
def pooled (r : Fin 8192) (i j : Fin 32) : EReal :=
  (∑ ka : Fin 2, ∑ kb : Fin 2, lin x y w b r (col i ka j kb)) * Ideal.ofBits .f32 0x3E800000#32

/-- The sum of every pooled value. -/
def total : EReal := ∑ r : Fin 8192, ∑ i : Fin 32, ∑ j : Fin 32, pooled x y w b r i j

/-- The mean of the pooled values: the sum, started from the float zero, divided by the float 8388608. -/
def mean : EReal := Ideal.div (Ideal.ofBits .f32 0x00000000#32 + total x y w b) (Ideal.ofBits .f32 0x4B000000#32)

/-- The result at row r, window (i, j). -/
def out (r : Fin 8192) (i j : Fin 32) : EReal := Ideal.div (pooled x y w b r i j) (mean x y w b)

/-- The pooled values laid out as an 8192 × 1024 array: window (i, j) of row r sits in column 32 i + j. -/
def pooledArr : (⟨2, ![8192, 1024]⟩ : Shape).Idx → EReal := fun i =>
  pooled x y w b ⟨(i 0).val, idx2_lt0 i⟩ ⟨(i 1).val / 32, by have := idx2_lt1 i; omega⟩ ⟨(i 1).val % 32, Nat.mod_lt _ (by decide)⟩

/-- The result laid out the same way. -/
def outArr : (⟨2, ![8192, 1024]⟩ : Shape).Idx → EReal := fun i =>
  Ideal.div (pooledArr x y w b i) (mean x y w b)

/-- The result as the 8192 × 1 × 32 × 32 array both programs return. -/
def result : (⟨4, ![8192, 1, 32, 32]⟩ : Shape).Idx → EReal := fun i =>
  out x y w b ⟨(i 0).val, (i 0).isLt⟩ ⟨(i 2).val, (i 2).isLt⟩ ⟨(i 3).val, (i 3).isLt⟩

theorem pooledArr_ix2 (r : Fin 8192) (i j : Fin 32) (q : Fin 1024) (hq : q.val = i.val * 32 + j.val) :
    pooledArr x y w b (ix2 r q) = pooled x y w b r i j := by
  unfold pooledArr
  have hi : (⟨(ix2 r q 1).val / 32, by have := idx2_lt1 (ix2 r q); omega⟩ : Fin 32) = i := Fin.ext (by
    show q.val / 32 = i.val
    have := j.isLt; omega)
  have hj : (⟨(ix2 r q 1).val % 32, Nat.mod_lt _ (by decide)⟩ : Fin 32) = j := Fin.ext (by
    show q.val % 32 = j.val
    have := j.isLt; omega)
  rw [hi, hj]

/-- The sum of the pooled array's entries is the sum of the pooled values: the 1024 columns of a row are its 32 × 32
    windows, each once. -/
theorem sum_pooledArr : ∑ i, pooledArr x y w b i = total x y w b := by
  rw [sum_idx2]
  unfold total
  refine Finset.sum_congr rfl fun r _ => ?_
  have h : ∑ p : Fin 32 × Fin 32, pooled x y w b r p.1 p.2 = ∑ q : Fin 1024, pooledArr x y w b (ix2 r q) :=
    Fintype.sum_equiv (finProdFinEquiv (m := 32) (n := 32)) (fun p => pooled x y w b r p.1 p.2)
      (fun q : Fin 1024 => pooledArr x y w b (ix2 r q)) fun p =>
      (pooledArr_ix2 x y w b r p.1 p.2 (finProdFinEquiv p) (by
        show (finProdFinEquiv p).val = p.1.val * 32 + p.2.val
        rw [finProdFinEquiv_apply_val]; omega)).symm
  rw [← h, Fintype.sum_prod_type]

end

/-! ## The same pooled value over the arrays as the first kernel region finds them

The region reads N rows of "x" and of "y" (N = 256 for one block, 8192 for the whole arrays), the weights already
transposed ("wt", 1024 × 4096: wt (k, n) = w (n, k)) and the bias as one row ("b2", 1 × 4096). -/

section
variable {N : ℕ} (a : (⟨2, ![N, 1024]⟩ : Shape).Idx → EReal) (y : (⟨2, ![N, 4096]⟩ : Shape).Idx → EReal)
  (wt : (⟨2, ![1024, 4096]⟩ : Shape).Idx → EReal) (b2 : (⟨2, ![1, 4096]⟩ : Shape).Idx → EReal)

/-- Entry (r, n) of the linear layer over the transposed weights and the bias row. -/
def linT (r : Fin N) (n : Fin 4096) : EReal :=
  (∑ k : Fin 1024, a (ix2 r k) * wt (ix2 k n)) + b2 (ix2 (0 : Fin 1) n) + y (ix2 r n)

/-- The pooled value of window (i, j) of row r, over the same. -/
def poolT (r : Fin N) (i j : Fin 32) : EReal :=
  (∑ ka : Fin 2, ∑ kb : Fin 2, linT a y wt b2 r (col i ka j kb)) * Ideal.ofBits .f32 0x3E800000#32

/-- A pooled value reads one row of "x" and of "y": if row p of a band holds row r of the tall arrays, the band's
    pooled values in row p are the tall arrays' in row r. -/
theorem poolT_band {M : ℕ} (A : (⟨2, ![M, 1024]⟩ : Shape).Idx → EReal) (Y : (⟨2, ![M, 4096]⟩ : Shape).Idx → EReal)
    (p : Fin N) (r : Fin M) (ha : ∀ k, a (ix2 p k) = A (ix2 r k)) (hy : ∀ n, y (ix2 p n) = Y (ix2 r n)) (i j : Fin 32) :
    poolT a y wt b2 p i j = poolT A Y wt b2 r i j := by
  unfold poolT linT
  refine congrArg (· * _) (Finset.sum_congr rfl fun ka _ => Finset.sum_congr rfl fun kb _ => ?_)
  rw [hy, Finset.sum_congr rfl fun k _ => by rw [ha k]]

end

/-- Over the whole arrays, with the weights transposed and the bias laid as a row, it is the pooled value. -/
theorem poolT_eq_pooled (x : (⟨2, ![8192, 1024]⟩ : Shape).Idx → EReal) (y : (⟨2, ![8192, 4096]⟩ : Shape).Idx → EReal)
    (w : (⟨2, ![4096, 1024]⟩ : Shape).Idx → EReal) (b : (⟨1, ![4096]⟩ : Shape).Idx → EReal)
    (wt : (⟨2, ![1024, 4096]⟩ : Shape).Idx → EReal) (b2 : (⟨2, ![1, 4096]⟩ : Shape).Idx → EReal)
    (hw : ∀ (k : Fin 1024) (n : Fin 4096), wt (ix2 k n) = w (ix2 n k)) (hb : ∀ n : Fin 4096, b2 (ix2 (0 : Fin 1) n) = b (ix1 n))
    (r : Fin 8192) (i j : Fin 32) : poolT x y wt b2 r i j = pooled x y w b r i j := by
  unfold poolT pooled linT lin
  refine congrArg (· * _) (Finset.sum_congr rfl fun ka _ => Finset.sum_congr rfl fun kb _ => ?_)
  rw [hb, Finset.sum_congr rfl fun k _ => by rw [hw k]]

/-- The float 0.25 is the real 1/4. -/
theorem ofBits_quarter : Ideal.ofBits .f32 0x3E800000#32 = ((1 / 4 : ℝ) : EReal) := by
  simp [Ideal.ofBits, Ideal.ieee, -EReal.coe_mul]; norm_num

/-- The float 4.0 is the real 4. -/
theorem ofBits_four : Ideal.ofBits .f32 0x40800000#32 = ((4 : ℝ) : EReal) := by
  simp [Ideal.ofBits, Ideal.ieee, -EReal.coe_mul]; norm_num

/-- Dividing by the float 4.0 is multiplying by the float 0.25, on every extended real. -/
theorem div_four (a : EReal) :
    Ideal.div a (Ideal.ofBits .f32 0x40800000#32) = a * Ideal.ofBits .f32 0x3E800000#32 := by
  rw [ofBits_four, ofBits_quarter, Ideal.div_coe (by norm_num)]

end PoolSpec

end
-- ==== Proof.KernelRun.lean ====
/-
  The idealized kernel program's run, with its result kept.

  The program is five segments: host operations, the first kernel region, host operations, the second kernel region,
  host operations.  Every weakly fair execution terminates without a fault, and in the final state every buffer that
  is not scoped to a region holds what the fold through the five segments leaves in it.  Read at the four arguments
  that fold gives back the launch contents; read at the result buffer it gives the last segment's value, which the
  value proof opens segment by segment.
-/
import proofs.«156101_j1580547974746_1_alg».proof.Proof.Gen.KernelIdeal.Frame

set_option maxRecDepth 16384

noncomputable section

namespace Cert.KernelIdeal.PoolRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the value the
    fold through the segments gives it and the four argument arrays as launched. -/
theorem run_main : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.PoolRun

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRegroup.lean ====
/-
  Rows regrouped into several axes and back, read at coordinates, over generic extents.

  A row of n = b c d e entries viewed as a b × c × d × e block: entry (j, k, l, m) of the block is entry
  ((j c + k) d + l) e + m of the row ("cast_an_abcde").  A b × c block viewed as a row of n = b c entries: entry j c + l of
  the row is entry (j, l) of the block ("cast_abc_an").  The sum over the last of five axes is a sum over that axis's
  coordinate ("sum_abcde_4").  A rank-3 index set is the product of its three coordinate ranges, so a sum over it is a
  triple sum ("idxEquiv3", "sum_idx3").  Each is the library's general lemma with the row-major arithmetic done once.
-/
import Idealize.ShloMosaic.Lib.Pipeline.Value
import Idealize.ShloMosaic.Lib.ValueIdx
import Idealize.ShloMosaic.PureOps.Ideal.Laws

open scoped BigOperators

namespace Regroup

open Idealize.ShloMosaic Idealize.ShloMosaic.ValueIdx

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Three layout readings -/

section Layout
variable {α : Type}

/-- `[a, n] → [a, b, c, d, e]` with `n = b c d e`: the entry `(i, j, k, l, m)` is the entry `(i, q)` of the flat
    rows, `q = ((j c + k) d + l) e + m`. -/
theorem cast_an_abcde {a n b c d e : ℕ} (x : (⟨2, ![a, n]⟩ : Shape).Idx → α)
    (h : (⟨2, ![a, n]⟩ : Shape).ShapeCasts ⟨5, ![a, b, c, d, e]⟩) (hn : n = b * c * d * e)
    (i : Fin a) (j : Fin b) (k : Fin c) (l : Fin d) (m : Fin e) (q : Fin n)
    (hq : q.val = ((j.val * c + k.val) * d + l.val) * e + m.val) :
    shapeCast ⟨5, ![a, b, c, d, e]⟩ x h (ix5 i j k l m) = x (ix2 i q) :=
  shapeCast_apply x h _ _ (by
    rw [Shape.rowMajor_val_two, Shape.rowMajor_val_five]
    show i.val * n + q.val = (((i.val * b + j.val) * c + k.val) * d + l.val) * e + m.val
    rw [hq, hn]; ring)

/-- `[a, b, c] → [a, n]` with `n = b c`: the entry `(i, q)`, `q = j c + l`, is the entry `(i, j, l)`. -/
theorem cast_abc_an {a b c n : ℕ} (x : (⟨3, ![a, b, c]⟩ : Shape).Idx → α)
    (h : (⟨3, ![a, b, c]⟩ : Shape).ShapeCasts ⟨2, ![a, n]⟩) (hn : n = b * c)
    (i : Fin a) (j : Fin b) (l : Fin c) (q : Fin n) (hq : q.val = j.val * c + l.val) :
    shapeCast ⟨2, ![a, n]⟩ x h (ix2 i q) = x (ix3 i j l) :=
  shapeCast_apply x h _ _ (by
    rw [Shape.rowMajor_val_three, Shape.rowMajor_val_two]
    show (i.val * b + j.val) * c + l.val = i.val * n + q.val
    rw [hq, hn]; ring)

/-- A sum over the last axis of five, read at coordinates. -/
theorem sum_abcde_4 {φ : FTy} {a b c d e : ℕ} (src : FVec Ideal ⟨5, ![a, b, c, d, e]⟩ φ) (acc : BitVec φ.bits)
    (h : (⟨5, ![a, b, c, d, e]⟩ : Shape).Reduces [4] ⟨4, ![a, b, c, d]⟩) (hφ : FKind.Formats φ)
    (hacc : acc = FKind.add.neutral φ hφ) (i : Fin a) (j : Fin b) (l : Fin c) (m : Fin d) :
    multiReduction .add [4] ⟨4, ![a, b, c, d]⟩ src acc h hφ hacc (ix4 i j l m) = ∑ k : Fin e, src (ix5 i j l m k) :=
  (Ideal.multiReduction_add_single src acc h hφ hacc (ix4 i j l m)).trans
    (Finset.sum_congr rfl fun k _ => congrArg src (funext fun ax => Fin.ext (by
      match ax with | ⟨0, _⟩ => rfl | ⟨1, _⟩ => rfl | ⟨2, _⟩ => rfl | ⟨3, _⟩ => rfl | ⟨4, _⟩ => rfl)))

end Layout

end Regroup
-- ==== Proof.PoolBody.lean ====
/-
  What the two kernel bodies compute, read at an index.

  The first body: a block of 256 rows of "x" times the transposed weights, plus the bias row, plus the block of "y";
  the 4096 columns regrouped as 32 × 2 × 32 × 2, the last axis summed, then the third, the result times the float
  0.25, laid back as 1024 columns.  At row p and column 32 i + j that is the pooled value of window (i, j) of row p.
  The second body divides every entry of its block by the one entry of its 1 × 1 operand.
-/
import proofs.«156101_j1580547974746_1_alg».proof.Proof.Gen.KernelIdeal.Skeleton
import proofs.«156101_j1580547974746_1_alg».proof.Proof.PoolSpec
import proofs.«156101_j1580547974746_1_alg».proof.Proof.LibMatProd
import proofs.«156101_j1580547974746_1_alg».proof.Proof.LibDot2
import proofs.«156101_j1580547974746_1_alg».proof.Proof.LibLayout
import proofs.«156101_j1580547974746_1_alg».proof.Proof.LibRegroup
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PoolBody

open Cert.KernelIdeal Cert.KernelIdeal.Gen Idealize.ShloMosaic Idealize.ShloMosaic.ValueIdx Regroup

/-- The first body's stored value at row p, column q = 32 i + j: the pooled value of window (i, j) of row p of the
    loaded blocks. -/
theorem pay0_apply (v0 : Vec Ideal S256x1024 .f32) (v2 : Vec Ideal S1024x4096 .bf16) (v5 : Vec Ideal S1x4096 .f32)
    (v9 : Vec Ideal S256x4096 .f32) (p : Fin 256) (i j : Fin 32) (q : Fin 1024) (hq : q.val = i.val * 32 + j.val) :
    k0_pay1 (F := Ideal) v0 v2 v5 v9 (ix2 p q) = PoolSpec.poolT v0 v9 v2 v5 p i j := by
  unfold k0_pay1
  refine (cast_abc_an _ _ rfl p i j q hq).trans ?_
  refine (mulf_apply _ _ _).trans ?_
  unfold PoolSpec.poolT
  refine congrArg₂ (· * ·) ?_ rfl
  refine (PushPull.Layout.sum_abcd_2 _ _ _ _ _ p i j).trans ?_
  refine Finset.sum_congr rfl fun ka _ => ?_
  refine (sum_abcde_4 _ _ _ _ _ p i ka j).trans ?_
  refine Finset.sum_congr rfl fun kb _ => ?_
  refine (cast_an_abcde _ _ rfl p i ka j kb (PoolSpec.col i ka j kb) (PoolSpec.col_val i ka j kb)).trans ?_
  unfold PoolSpec.linT
  refine (addf_apply _ _ _).trans ?_
  refine congrArg₂ (· + ·) ?_ rfl
  refine (addf_apply _ _ _).trans ?_
  refine congrArg₂ (· + ·) ?_ ?_
  · refine (MatProd.matmul_zero_entry _ none (Dot2.rank_contr _ rfl) (Dot2.size_contr _ rfl _) (Dot2.lhs0 _ rfl rfl)
      (Dot2.lhs1 _ rfl _) (Dot2.rhs0 _ rfl _) (Dot2.rhs1 _ rfl rfl rfl rfl) _ _ p _).trans ?_
    unfold MatProd.entry
    rw [shapeCast_self]
    rfl
  · refine (broadcastTo_1b_ab_apply _ _ p _).trans ?_
    rw [shapeCast_self]

/-- The second body's stored value: the block's entry divided by the 1 × 1 operand's entry. -/
theorem pay1_apply (v0 : Vec Ideal S1024x1024 .f32) (v2 : Vec Ideal S1x1 .f32) (i : S1024x1024.Idx) :
    k1_pay1 (F := Ideal) v0 v2 i = Ideal.div (v0 i) (v2 (ix2 (0 : Fin 1) (0 : Fin 1))) := by
  unfold k1_pay1
  rw [divf_apply, shapeCast_self, broadcast_apply]
  unfold extractAt
  refine congrArg (fun t => Ideal.div (v0 i) (v2 t)) (funext fun ax => Fin.ext ?_)
  match ax with
  | ⟨0, _⟩ => rfl
  | ⟨1, _⟩ => rfl

end Cert.KernelIdeal.PoolBody

end
-- ==== Proof.PoolBlocks.lean ====
/-
  From blocks to whole arrays, for each of the two kernel regions, at any contents "V" the region may find.

  Region 0 runs 32 points; point t reads rows 256 t … 256 t + 255 of "x" and "y", the whole transposed weights and
  the bias row, and writes rows 256 t … of its output.  Since a pooled value reads one row only, the output array
  ends holding, at row r and column 32 i + j, the pooled value of window (i, j) of row r of the arrays found.
  Region 1 runs 8 points of 1024 rows; its output ends holding every entry of its first operand divided by the one
  entry of its second.
-/
import proofs.«156101_j1580547974746_1_alg».proof.Proof.Gen.KernelIdeal.Frame
import proofs.«156101_j1580547974746_1_alg».proof.Proof.PoolSpec
import proofs.«156101_j1580547974746_1_alg».proof.Proof.PoolBody
import Idealize.ShloMosaic.Lib.Pipeline.Value

noncomputable section

open scoped BigOperators

namespace Cert.KernelIdeal.PoolBlocks

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-! ## Region 0: the pooled values, one band of 256 rows per point -/

/-- The printed index maps of region 0, decided over its 32 points: the blocks of "x" and of "y" move with the
    output's, the weights' and the bias row's stay at the origin, and the output's block at point t is block row t. -/
theorem index_maps0 : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's stored value at row p, column q of a block, when row p of the blocks of "x" and "y" is row (g 0) of
    tall arrays, q is column (g 1), and the weights and bias blocks are the whole arrays: the pooled value of the
    tall arrays at g. -/
theorem stored_value0 (A : S8192x1024.Idx → EReal) (Y : S8192x4096.Idx → EReal)
    (a : Vec Ideal S256x1024 .f32) (y : Vec Ideal S256x4096 .f32) (wt WT : Vec Ideal S1024x4096 .bf16)
    (b2 B2 : Vec Ideal S1x4096 .f32) (p : Fin 256) (q : Fin 1024) (g : S8192x1024.Idx) (hg1 : (g 1).val = q.val)
    (ha : ∀ k : Fin 1024, a (ix2 p k) = A (ix2 (⟨(g 0).val, idx2_lt0 g⟩ : Fin 8192) k))
    (hy : ∀ n : Fin 4096, y (ix2 p n) = Y (ix2 (⟨(g 0).val, idx2_lt0 g⟩ : Fin 8192) n))
    (hw : wt = WT) (hb : b2 = B2) :
    k0_pay1 (F := Ideal) a wt b2 y (ix2 p q)
      = PoolSpec.poolT A Y WT B2 ⟨(g 0).val, idx2_lt0 g⟩ ⟨(g 1).val / 32, by have := idx2_lt1 g; omega⟩
          ⟨(g 1).val % 32, Nat.mod_lt _ (by decide)⟩ := by
  subst hw hb
  have hq : q.val = (q.val / 32) * 32 + q.val % 32 := by omega
  have hlt : q.val / 32 < 32 := by have := q.isLt; omega
  rw [PoolBody.pay0_apply a wt b2 y p ⟨q.val / 32, hlt⟩ ⟨q.val % 32, Nat.mod_lt _ (by decide)⟩ q hq]
  have hi : (⟨(g 1).val / 32, by have := idx2_lt1 g; omega⟩ : Fin 32) = ⟨q.val / 32, hlt⟩ :=
    Fin.ext (by show (g 1).val / 32 = q.val / 32; rw [hg1])
  have hj : (⟨(g 1).val % 32, Nat.mod_lt _ (by decide)⟩ : Fin 32) = ⟨q.val % 32, Nat.mod_lt _ (by decide)⟩ :=
    Fin.ext (by show (g 1).val % 32 = q.val % 32; rw [hg1])
  rw [hi, hj]
  exact PoolSpec.poolT_band a y wt b2 A Y p _ ha hy _ _

/-- What point t of region 0 writes back is its block of the pooled array of the arrays found. -/
theorem flushed0_eq (c : Dev nD) (t : Fin cfg0.N) :
    (dat0 V c).flushed 4 t = ((cfg0.win 4).blk t).view.read (Elt Ideal) (fun i : S8192x1024.Idx =>
      PoolSpec.poolT (V c main_arg0) (V c main_arg1) (V c main_v1) (V c main_v2)
        ⟨(i 0).val, idx2_lt0 i⟩ ⟨(i 1).val / 32, by have := idx2_lt1 i; omega⟩ ⟨(i 1).val % 32, Nat.mod_lt _ (by decide)⟩) := by
  show (cfg0.win 4).cut (grid0.coords t) ((dat0 V c).after 4 t) = _
  rw [after0_4]
  unfold out0_4
  rw [View.canon_unit_zero zero_offsets]
  simp only [View.ld_unit_zero (S := S256x1024) zero_offsets, View.ld_unit_zero (S := S1024x4096) zero_offsets,
    View.ld_unit_zero (S := S1x4096) zero_offsets, View.ld_unit_zero (S := S256x4096) zero_offsets]
  obtain ⟨e0, e1, e2, e3, e4, e5, e6, e7, e8, e9⟩ := index_maps0 t
  refine funext fun (y : S256x1024.Idx) => ?_
  obtain ⟨p, q, rfl⟩ : ∃ (p : Fin 256) (q : Fin 1024), y = ix2 p q := ⟨y 0, y 1, eq_ix2 y⟩
  refine stored_value0 (V c main_arg0) (V c main_arg1) (iblk0 V c 0 t) (iblk0 V c 1 t) (iblk0 V c 2 t) (V c main_v1)
    (iblk0 V c 3 t) (V c main_v2) p q (((cfg0.win 4).blk t).view.emb (ix2 p q)) ?_ ?_ ?_ ?_ ?_
  · show win0_4.index t (1 : Fin 2) * 1024 + 1 * q.val = q.val; omega
  · intro k
    show V c main_arg0 (((cfg0.win 0).blk t).view.emb (ix2 p k)) = _
    refine congrArg (V c main_arg0) ?_
    funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 1024 + 1 * k.val = k.val; omega
  · intro n
    show V c main_arg1 (((cfg0.win 1).blk t).view.emb (ix2 p n)) = _
    refine congrArg (V c main_arg1) ?_
    funext a; apply Fin.ext
    match a with
    | ⟨0, _⟩ => show win0_1.index t (0 : Fin 2) * 256 + 1 * p.val = win0_4.index t (0 : Fin 2) * 256 + 1 * p.val; omega
    | ⟨1, _⟩ => show win0_1.index t (1 : Fin 2) * 4096 + 1 * n.val = n.val; omega
  · funext x
    show V c main_v1 (((cfg0.win 2).blk t).view.emb x) = V c main_v1 x
    refine congrArg (V c main_v1) ?_
    funext a; apply Fin.ext
    match a with
    | ⟨0, _⟩ => show win0_2.index t (0 : Fin 2) * 1024 + 1 * (x 0).val = (x 0).val; omega
    | ⟨1, _⟩ => show win0_2.index t (1 : Fin 2) * 4096 + 1 * (x 1).val = (x 1).val; omega
  · funext x
    show V c main_v2 (((cfg0.win 3).blk t).view.emb x) = V c main_v2 x
    refine congrArg (V c main_v2) ?_
    funext a; apply Fin.ext
    match a with
    | ⟨0, _⟩ => show win0_3.index t (0 : Fin 2) * 1 + 1 * (x 0).val = (x 0).val; omega
    | ⟨1, _⟩ => show win0_3.index t (1 : Fin 2) * 4096 + 1 * (x 1).val = (x 1).val; omega

/-- An index of the output array is in point t's block iff each coordinate is in the block's range on its axis. -/
theorem mem_block0 (t : Fin cfg0.N) (i : S8192x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v3).slice (win0_4.rect t)).set ↔ _
  rw [View.set_slice_whole, Rect.mem_set_unit]
  exact Iff.rfl

/-- Row r of the output array is written back by point r / 256. -/
theorem cover0 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 32 := N_0
  let t : Fin cfg0.N := ⟨(i 0).val / 256, by rw [hN]; omega⟩
  obtain ⟨e0, e1, e2, e3, e4, e5, e6, e7, e8, e9⟩ := index_maps0 t
  have e8' : win0_4.index t (0 : Fin 2) = (i 0).val / 256 := e8
  refine ⟨t, flush0_4 t, ?_⟩
  rw [mem_block0]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- Region 0's output array after its 32 points. -/
theorem final0 (c : Dev nD) :
    (dat0 V c).arrAt 4 cfg0.N = (fun i : S8192x1024.Idx =>
      PoolSpec.poolT (V c main_arg0) (V c main_arg1) (V c main_v1) (V c main_v2)
        ⟨(i 0).val, idx2_lt0 i⟩ ⟨(i 1).val / 32, by have := idx2_lt1 i; omega⟩ ⟨(i 1).val % 32, Nat.mod_lt _ (by decide)⟩) := by
  exact (dat0 V c).arrAt_eq_of_cover 4 _ (fun t _ => flushed0_eq V c t) cover0

/-! ## Region 1: every entry divided by one entry -/

/-- The printed index maps of region 1, decided over its 8 points: the first operand's block moves with the output's,
    the 1 × 1 operand's stays at the origin, and the output's block at point t is block row t. -/
theorem index_maps1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t of region 1 writes back is its block of the quotient array. -/
theorem flushed1_eq (c : Dev nD) (t : Fin cfg1.N) :
    (dat1 V c).flushed 2 t = ((cfg1.win 2).blk t).view.read (Elt Ideal)
      (fun i : S8192x1024.Idx => Ideal.div (V c main_v3 i) (V c main_v6 (ix2 (0 : Fin 1) (0 : Fin 1)))) := by
  show (cfg1.win 2).cut (grid1.coords t) ((dat1 V c).after 2 t) = _
  rw [after1_2]
  unfold out1_2
  rw [View.canon_unit_zero zero_offsets]
  simp only [View.ld_unit_zero (S := S1024x1024) zero_offsets, View.ld_unit_zero (S := S1x1) zero_offsets]
  obtain ⟨e0, e1, e2, e3, e4, e5⟩ := index_maps1 t
  funext y
  refine (PoolBody.pay1_apply (iblk1 V c 0 t) (iblk1 V c 1 t) y).trans ?_
  show Ideal.div (V c main_v3 (((cfg1.win 0).blk t).view.emb y)) (V c main_v6 (((cfg1.win 1).blk t).view.emb (ix2 (0 : Fin 1) (0 : Fin 1))))
    = Ideal.div (V c main_v3 (((cfg1.win 2).blk t).view.emb y)) (V c main_v6 (ix2 (0 : Fin 1) (0 : Fin 1)))
  have h0 : ((cfg1.win 0).blk t).view.emb y = ((cfg1.win 2).blk t).view.emb y := by
    funext a; apply Fin.ext
    match a with
    | ⟨0, _⟩ => show win1_0.index t (0 : Fin 2) * 1024 + 1 * (y 0).val = win1_2.index t (0 : Fin 2) * 1024 + 1 * (y 0).val; omega
    | ⟨1, _⟩ => show win1_0.index t (1 : Fin 2) * 1024 + 1 * (y 1).val = win1_2.index t (1 : Fin 2) * 1024 + 1 * (y 1).val; omega
  have h1 : ((cfg1.win 1).blk t).view.emb (ix2 (0 : Fin 1) (0 : Fin 1)) = ix2 (0 : Fin 1) (0 : Fin 1) := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  rw [h0, h1]

/-- An index of the output array is in point t's block iff each coordinate is in the block's range on its axis. -/
theorem mem_block1 (t : Fin cfg1.N) (i : S8192x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v7).slice (win1_2.rect t)).set ↔ _
  rw [View.set_slice_whole, Rect.mem_set_unit]
  exact Iff.rfl

/-- Row r of the output array is written back by point r / 1024. -/
theorem cover1 (i : S8192x1024.Idx) :
    ∃ t : Fin cfg1.N, (cfg1.win 2).flush t = true ∧ i ∈ ((cfg1.win 2).blk t).view.set := by
  have hi0 : (i 0).val < 8192 := (i 0).isLt
  have hi1 : (i 1).val < 1024 := (i 1).isLt
  have hN : cfg1.N = 8 := N_1
  let t : Fin cfg1.N := ⟨(i 0).val / 1024, by rw [hN]; omega⟩
  obtain ⟨e0, e1, e2, e3, e4, e5⟩ := index_maps1 t
  have e4' : win1_2.index t (0 : Fin 2) = (i 0).val / 1024 := e4
  refine ⟨t, flush1_2 t, ?_⟩
  rw [mem_block1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- Region 1's output array after its 8 points. -/
theorem final1 (c : Dev nD) :
    (dat1 V c).arrAt 2 cfg1.N = (fun i : S8192x1024.Idx => Ideal.div (V c main_v3 i) (V c main_v6 (ix2 (0 : Fin 1) (0 : Fin 1)))) := by
  exact (dat1 V c).arrAt_eq_of_cover 2 _ (fun t _ => flushed1_eq V c t) cover1

end Cert.KernelIdeal.PoolBlocks

end
-- ==== Proof.KernelValue.lean ====
/-
  The idealized kernel program's result, opened segment by segment, is the specification's result.

  Walking the fold backwards from the result buffer: the last host operation only re-lays the second region's
  8192 × 1024 output as 8192 × 1 × 32 × 32; the second region leaves every entry of the first region's output divided
  by the one entry of the 1 × 1 mean array; the host operations between the regions make that entry the sum of the
  first region's output, started from the float zero, divided by the float 8388608; the first region leaves the
  pooled values of the arrays it finds; and the host operations before it transpose the weights (a change of float
  format is the identity on extended reals) and lay the bias as one row.  Put together, entry (r, 0, i, j) of the
  result is the pooled value of window (i, j) of row r divided by the mean of all pooled values.
-/
import proofs.«156101_j1580547974746_1_alg».proof.Proof.Gen.KernelIdeal.Frame
import proofs.«156101_j1580547974746_1_alg».proof.Proof.PoolSpec
import proofs.«156101_j1580547974746_1_alg».proof.Proof.PoolBlocks
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PoolValue

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (ρ : Dev nD → PrngReg) (c : Dev nD)

/-! ## What the first region finds -/

theorem V1_arg0 : V1 m ρ c main_arg0 = m ((c : Thread nD τ).loc main_arg0) := by
  show StableHlo.after hostOps0 (W0 m ρ c) (Proc.devRef .tc main_arg0) = _
  after_results

theorem V1_arg1 : V1 m ρ c main_arg1 = m ((c : Thread nD τ).loc main_arg1) := by
  show StableHlo.after hostOps0 (W0 m ρ c) (Proc.devRef .tc main_arg1) = _
  after_results

/-- The weights as the region finds them: transposed, then narrowed. -/
theorem V1_v1 : (V1 m ρ c main_v1 : S1024x4096.Idx → EReal)
    = truncf (F := Ideal) .bf16 (transpose S1024x4096 [1, 0] (m ((c : Thread nD τ).loc main_arg2)) transposes_S4096x1024_S1024x4096_1_0) bitsLt_bf16_f32 := by
  show StableHlo.after hostOps0 (W0 m ρ c) (Proc.devRef .tc main_v1) = _
  after_results

/-- The bias as the region finds it: one row. -/
theorem V1_v2 : (V1 m ρ c main_v2 : S1x4096.Idx → EReal)
    = shapeCast S1x4096 (m ((c : Thread nD τ).loc main_arg3)) shapeCasts_S4096_S1x4096 := by
  show StableHlo.after hostOps0 (W0 m ρ c) (Proc.devRef .tc main_v2) = _
  after_results; rfl

/-- Entry (k, n) of the weights found is entry (n, k) of the weights given. -/
theorem V1_v1_apply (k : Fin 1024) (n : Fin 4096) :
    V1 m ρ c main_v1 (ix2 k n) = m ((c : Thread nD τ).loc main_arg2) (ix2 n k) := by
  rw [V1_v1]
  exact transpose_ix2_apply (m ((c : Thread nD τ).loc main_arg2)) transposes_S4096x1024_S1024x4096_1_0 k n

/-- Entry (0, n) of the bias row is entry n of the bias. -/
theorem V1_v2_apply (n : Fin 4096) :
    V1 m ρ c main_v2 (ix2 (0 : Fin 1) n) = m ((c : Thread nD τ).loc main_arg3) (ix1 n) := by
  rw [V1_v2]
  exact shapeCast_a_1a_apply (m ((c : Thread nD τ).loc main_arg3)) shapeCasts_S4096_S1x4096 0 n

/-! ## What the first region leaves -/

/-- The first region's output is the array of pooled values. -/
theorem pooled_out : W2 m ρ c (Proc.devRef .tc main_v3)
    = PoolSpec.pooledArr (m ((c : Thread nD τ).loc main_arg0)) (m ((c : Thread nD τ).loc main_arg1))
        (m ((c : Thread nD τ).loc main_arg2)) (m ((c : Thread nD τ).loc main_arg3)) := by
  refine (W2_arr m ρ c 4).trans ?_
  rw [PoolBlocks.final0 (V1 m ρ) c]
  funext i
  unfold PoolSpec.pooledArr
  rw [V1_arg0, V1_arg1]
  exact PoolSpec.poolT_eq_pooled _ _ _ _ _ _ (V1_v1_apply m ρ c) (V1_v2_apply m ρ c) _ _ _

/-! ## Between the regions -/

/-- The first region's output is still there when the second region starts. -/
theorem V3_v3 : (V3 m ρ c main_v3 : S8192x1024.Idx → EReal) = W2 m ρ c (Proc.devRef .tc main_v3) := by
  show StableHlo.after hostOps1 (W2 m ρ c) (Proc.devRef .tc main_v3) = _
  after_results

/-- The 1 × 1 array the second region divides by: the sum of the first region's output, started from the float
    zero, divided by the float 8388608. -/
theorem V3_v6 : (V3 m ρ c main_v6 : S1x1.Idx → EReal)
    = shapeCast S1x1 (Host.divf (F := Ideal)
        (Host.reduceAdd (F := Ideal) (W2 m ρ c (Proc.devRef .tc main_v3)) (constant (F := Ideal) S_ .f32 0x00000000#32) reducesTo_S8192x1024_S_d0_1 h_S_)
        (constant (F := Ideal) S_ .f32 0x4B000000#32)) shapeCasts_S_S1x1 := by
  show StableHlo.after hostOps1 (W2 m ρ c) (Proc.devRef .tc main_v6) = _
  after_results <;> rfl

/-- A scalar laid as a 1 × 1 array holds the scalar. -/
theorem cast_scalar_11 (z : S_.Idx → EReal) : shapeCast S1x1 z shapeCasts_S_S1x1 (ix2 (0 : Fin 1) (0 : Fin 1)) = z ix0 :=
  shapeCast_apply z shapeCasts_S_S1x1 _ _ (by
    rw [Shape.rowMajor_val_two]
    have h := (S_.rowMajor ix0).isLt
    have h1 : S_.numel = 1 := rfl
    show (S_.rowMajor ix0).val = 0 * 1 + 0
    omega)

/-- Its one entry is the mean of the pooled values. -/
theorem mean_entry : V3 m ρ c main_v6 (ix2 (0 : Fin 1) (0 : Fin 1))
    = PoolSpec.mean (m ((c : Thread nD τ).loc main_arg0)) (m ((c : Thread nD τ).loc main_arg1))
        (m ((c : Thread nD τ).loc main_arg2)) (m ((c : Thread nD τ).loc main_arg3)) := by
  rw [V3_v6, pooled_out]
  refine (cast_scalar_11 _).trans ?_
  unfold PoolSpec.mean
  rw [← PoolSpec.sum_pooledArr]
  show FloatOps.hostDivf _ _ = _
  rw [Ideal.hostDivf_def]
  refine congrArg (Ideal.div · _) ?_
  simp only [Host.reduceAdd, Ideal.hostReduceAdd_def]
  exact Ideal.hostReduceAdd_total reducesTo_S8192x1024_S_d0_1 (fun b => b.elim0) _ _ ix0

/-! ## What the second region leaves, and the result -/

/-- The second region's output is the array of results. -/
theorem out_arr : W4 m ρ c (Proc.devRef .tc main_v7)
    = PoolSpec.outArr (m ((c : Thread nD τ).loc main_arg0)) (m ((c : Thread nD τ).loc main_arg1))
        (m ((c : Thread nD τ).loc main_arg2)) (m ((c : Thread nD τ).loc main_arg3)) := by
  refine (W4_arr m ρ c 2).trans ?_
  rw [PoolBlocks.final1 (V3 m ρ) c]
  funext i
  unfold PoolSpec.outArr
  rw [mean_entry, V3_v3, pooled_out]

/-- The program's result buffer after the last host operation is the specification's result. -/
theorem result_eq : (W5 m ρ c (Proc.devRef .tc main_v8) : S8192x1x32x32.Idx → EReal)
    = PoolSpec.result (m ((c : Thread nD τ).loc main_arg0)) (m ((c : Thread nD τ).loc main_arg1))
        (m ((c : Thread nD τ).loc main_arg2)) (m ((c : Thread nD τ).loc main_arg3)) := by
  have e : (W5 m ρ c (Proc.devRef .tc main_v8) : S8192x1x32x32.Idx → EReal)
      = shapeCast S8192x1x32x32 (W4 m ρ c (Proc.devRef .tc main_v7)) shapeCasts_S8192x1024_S8192x1x32x32 := by
    show StableHlo.after hostOps2 (W4 m ρ c) (Proc.devRef .tc main_v8) = _
    after_results <;> rfl
  rw [e, out_arr]
  funext i
  obtain ⟨r, u, a, b', rfl⟩ : ∃ (r : Fin 8192) (u : Fin 1) (a : Fin 32) (b' : Fin 32), i = ix4 r u a b' :=
    ⟨i 0, i 1, i 2, i 3, eq_ix4 i⟩
  refine (shapeCast_apply _ shapeCasts_S8192x1024_S8192x1x32x32 _
    (ix2 r (⟨a.val * 32 + b'.val, by have := a.isLt; have := b'.isLt; omega⟩ : Fin 1024)) (by
      rw [Shape.rowMajor_val_two, Shape.rowMajor_val_four]
      show r.val * 1024 + (a.val * 32 + b'.val) = ((r.val * 1 + u.val) * 32 + a.val) * 32 + b'.val
      have := u.isLt; omega)).trans ?_
  unfold PoolSpec.outArr PoolSpec.result PoolSpec.out
  rw [PoolSpec.pooledArr_ix2 _ _ _ _ r a b' _ rfl]

end Cert.KernelIdeal.PoolValue

end
-- ==== Proof.RefValue.lean ====
/-
  The reference program's result, index by index, is the specification's result.
-/
import proofs.«156101_j1580547974746_1_alg».proof.Proof.Gen.ReferenceIdeal.Read
import proofs.«156101_j1580547974746_1_alg».proof.Proof.PoolSpec
import proofs.«156101_j1580547974746_1_alg».proof.Proof.LibRegroup

noncomputable section

open scoped BigOperators

namespace Cert.ReferenceIdeal.RefValue

open Cert.ReferenceIdeal Idealize.ShloMosaic Idealize.ShloMosaic.ValueIdx Regroup

/-! ## The sum over the two pixel axes of a window -/

/-- Of an 8192 × 32 × 2 × 32 × 2 array summed over its axes 2 and 4, the entry (r, a, b) is the initial value plus the
    four entries (r, a, ka, b, kb): the indices that drop to (r, a, b) are exactly those four, each once. -/
theorem hostReduceAdd_pixels (h : S8192x32x2x32x2.ReducesTo [2, 4] S8192x32x32) (y : S8192x32x2x32x2.Idx → EReal)
    (init : EReal) (r : Fin 8192) (a b : Fin 32) :
    Ideal.hostReduceAdd h y init (ix3 r a b) = init + ∑ ka : Fin 2, ∑ kb : Fin 2, y (ix5 r a ka b kb) := by
  unfold Ideal.hostReduceAdd
  refine congrArg (init + ·) ?_
  refine Eq.trans ?_ (Fintype.sum_prod_type (fun p : Fin 2 × Fin 2 => y (ix5 r a p.1 b p.2)))
  -- an index that drops to (r, a, b) is (r, a, ka, b, kb) for its own coordinates ka, kb on the dropped axes
  have key : ∀ i : S8192x32x2x32x2.Idx, h.drop i = ix3 r a b →
      i = ix5 r a (⟨(i 2).val, (i 2).isLt⟩ : Fin 2) b (⟨(i 4).val, (i 4).isLt⟩ : Fin 2) := by
    intro i hi
    have h0 : (i 0).val = r.val := (h.drop_apply_val_of_eq i 0 0).symm.trans (congrArg (fun j => (j 0).val) hi)
    have h1 : (i 1).val = a.val := (h.drop_apply_val_of_eq i 1 1).symm.trans (congrArg (fun j => (j 1).val) hi)
    have h3 : (i 3).val = b.val := (h.drop_apply_val_of_eq i 2 3).symm.trans (congrArg (fun j => (j 2).val) hi)
    funext d
    refine Fin.ext ?_
    match d with
    | ⟨0, _⟩ => exact h0
    | ⟨1, _⟩ => exact h1
    | ⟨2, _⟩ => rfl
    | ⟨3, _⟩ => exact h3
    | ⟨4, _⟩ => rfl
  refine Finset.sum_nbij' (fun i => ((⟨(i 2).val, (i 2).isLt⟩ : Fin 2), (⟨(i 4).val, (i 4).isLt⟩ : Fin 2)))
    (fun p => ix5 r a p.1 b p.2) ?_ ?_ ?_ ?_ ?_
  · intro i _; exact Finset.mem_univ _
  · intro p _
    refine Finset.mem_filter.2 ⟨Finset.mem_univ _, ?_⟩
    funext d
    refine Fin.ext ?_
    match d with
    | ⟨0, _⟩ => exact h.drop_apply_val_of_eq _ 0 0
    | ⟨1, _⟩ => exact h.drop_apply_val_of_eq _ 1 1
    | ⟨2, _⟩ => exact h.drop_apply_val_of_eq _ 2 3
  · intro i hi; exact (key i (Finset.mem_filter.1 hi).2).symm
  · intro p _; rfl
  · intro i hi; exact congrArg y (key i (Finset.mem_filter.1 hi).2)

/-! ## The stages of the reference, read at coordinates -/

section
variable (x0 : (⟨S8192x1024, .f32⟩ : BufTy).Contents (Elt Ideal)) (x1 : (⟨S8192x4096, .f32⟩ : BufTy).Contents (Elt Ideal))
  (x2 : (⟨S4096x1024, .f32⟩ : BufTy).Contents (Elt Ideal)) (x3 : (⟨S4096, .f32⟩ : BufTy).Contents (Elt Ideal))

/-- The product with the bias row and the residual added, at (r, n), is the linear layer's entry. -/
theorem v4_ix2 (r : Fin 8192) (n : Fin 4096) :
    Read.val_main_v4 (F := Ideal) x0 x1 x2 x3 (ix2 r n) = PoolSpec.lin x0 x1 x2 x3 r n := by
  rw [Read.val_main_v4_apply, Read.val_main_v3_apply, Read.val_main_v0_apply, Read.val_main_v2_apply,
    Read.val_main_v1_apply]
  have el : ∀ k : Fin 1024, Read.lidx_main_v0 (ix2 r n) k = ix2 r k := fun k => funext fun d => by
    match d with
    | ⟨0, _⟩ => rfl
    | ⟨1, _⟩ => rfl
  have er : ∀ k : Fin 1024, Read.ridx_main_v0 (ix2 r n) k = ix2 n k := fun k => funext fun d => by
    match d with
    | ⟨0, _⟩ => rfl
    | ⟨1, _⟩ => rfl
  have eb : Read.idx_main_v1 (Read.idx_main_v2 (ix2 r n)) = ix1 n := funext fun d => by
    match d with
    | ⟨0, _⟩ => rfl
  rw [eb, Finset.sum_congr rfl fun k _ => by rw [el k, er k]]
  rfl

/-- The two reshapes only rename positions: entry (r, a, ka, b, kb) of the five-axis array is the linear layer's entry
    (r, column of pixel (ka, kb) of window (a, b)), both being position ((((r * 32 + a) * 2 + ka) * 32 + b) * 2 + kb)
    of the row-major order. -/
theorem v6_ix5 (r : Fin 8192) (a : Fin 32) (ka : Fin 2) (b : Fin 32) (kb : Fin 2) :
    Read.val_main_v6 (F := Ideal) x0 x1 x2 x3 (ix5 r a ka b kb)
      = PoolSpec.lin x0 x1 x2 x3 r (PoolSpec.col a ka b kb) := by
  rw [Read.val_main_v6_apply, Read.val_main_v5_apply]
  have e : Read.idx_main_v5 (Read.idx_main_v6 (ix5 r a ka b kb)) = ix2 r (PoolSpec.col a ka b kb) := by
    have hr := r.isLt; have ha := a.isLt; have hka := ka.isLt; have hb := b.isLt; have hkb := kb.isLt
    funext d
    refine Fin.ext ?_
    match d with
    | ⟨0, _⟩ =>
      show ((((((r.val * 32 + a.val) * 2 + ka.val) * 32 + b.val) * 2 + kb.val) / 4096 * 64
        + ((((r.val * 32 + a.val) * 2 + ka.val) * 32 + b.val) * 2 + kb.val) / 64 % 64) * 64
        + ((((r.val * 32 + a.val) * 2 + ka.val) * 32 + b.val) * 2 + kb.val) % 64) / 4096 = r.val
      omega
    | ⟨1, _⟩ =>
      show ((((((r.val * 32 + a.val) * 2 + ka.val) * 32 + b.val) * 2 + kb.val) / 4096 * 64
        + ((((r.val * 32 + a.val) * 2 + ka.val) * 32 + b.val) * 2 + kb.val) / 64 % 64) * 64
        + ((((r.val * 32 + a.val) * 2 + ka.val) * 32 + b.val) * 2 + kb.val) % 64) % 4096
        = ((a.val * 2 + ka.val) * 32 + b.val) * 2 + kb.val
      omega
  rw [e, v4_ix2]

/-- The sum over the two pixel axes started from the float zero, divided by the float 4.0, at (r, a, b), is the pooled
    value of window (a, b) of row r. -/
theorem v9_ix3 (r : Fin 8192) (a b : Fin 32) :
    Read.val_main_v9 (F := Ideal) x0 x1 x2 x3 (ix3 r a b) = PoolSpec.pooled x0 x1 x2 x3 r a b := by
  rw [Read.val_main_v9_apply, Read.val_main_v8_apply, Read.val_main_cst_0_apply]
  unfold Read.val_main_v7
  simp only [Host.reduceAdd, Ideal.hostReduceAdd_def]
  rw [hostReduceAdd_pixels, Read.val_main_cst_apply, Ideal.hostDivf_def, Ideal.ofBits_def, Ideal.ofBits_def,
    Ideal.ofBits_zero_f32, zero_add, PoolSpec.div_four]
  unfold PoolSpec.pooled
  refine congrArg (· * _) (Finset.sum_congr rfl fun ka _ => Finset.sum_congr rfl fun kb _ => ?_)
  exact v6_ix5 x0 x1 x2 x3 r a ka b kb

/-- The sum of every entry of that array is the sum of every pooled value. -/
theorem sum_v9 : ∑ j : S8192x32x32.Idx, Read.val_main_v9 (F := Ideal) x0 x1 x2 x3 j = PoolSpec.total x0 x1 x2 x3 := by
  refine (sum_idx3 _).trans ?_
  unfold PoolSpec.total
  exact Finset.sum_congr rfl fun r _ => Finset.sum_congr rfl fun a _ => Finset.sum_congr rfl fun b _ =>
    v9_ix3 x0 x1 x2 x3 r a b

/-- The total started from the float zero and divided by the float 8388608 is the mean. -/
theorem v11_eq (j : S_.Idx) : Read.val_main_v11 (F := Ideal) x0 x1 x2 x3 j = PoolSpec.mean x0 x1 x2 x3 := by
  rw [Read.val_main_v11_apply, Read.val_main_v10_apply, Read.val_main_cst_1_apply, Read.val_main_cst_2_apply, sum_v9]
  rfl

end

/-- The reference's last stage, as a function of the four argument arrays, is the specification's result array. -/
theorem ref_eq (x0 : (⟨S8192x1024, .f32⟩ : BufTy).Contents (Elt Ideal)) (x1 : (⟨S8192x4096, .f32⟩ : BufTy).Contents (Elt Ideal))
    (x2 : (⟨S4096x1024, .f32⟩ : BufTy).Contents (Elt Ideal)) (x3 : (⟨S4096, .f32⟩ : BufTy).Contents (Elt Ideal)) :
    Read.val_main_v14 (F := Ideal) x0 x1 x2 x3 = PoolSpec.result x0 x1 x2 x3 := by
  funext i
  obtain ⟨r, u, a, b, rfl⟩ : ∃ (r : Fin 8192) (u : Fin 1) (a b : Fin 32), i = ix4 r u a b :=
    ⟨i 0, i 1, i 2, i 3, eq_ix4 i⟩
  have e : Read.idx_main_v14 (ix4 r u a b) = ix3 r a b := funext fun d => by
    match d with
    | ⟨0, _⟩ => rfl
    | ⟨1, _⟩ => rfl
    | ⟨2, _⟩ => rfl
  rw [Read.val_main_v14_apply, e, Read.val_main_v13_apply, Read.val_main_v12_apply, v9_ix3, v11_eq]
  rfl

end Cert.ReferenceIdeal.RefValue

end
-- ==== Proof.lean ====
/-
  The five claims about one kernel: a fused linear layer (x times the transposed weights, plus bias, plus a residual),
  2 × 2 average pooling of each row's 64 × 64 picture, and division by the mean of all pooled values, computed by two
  kernel regions with a host sum between them; against the same computation written with plain array operations.

  The three frame claims: the two kernel programs' frames are the generated ones; the reference's frame is its
  generated run with the result dropped.  The idealization rewrote nothing, so there is nothing to preserve.  For the
  algebraic claim both programs end with their result buffer at ONE function of the four argument arrays
  (PoolSpec.result): the idealized kernel by its run with the result kept (KernelRun) opened segment by segment
  (KernelValue, over the two regions' whole-array forms in PoolBlocks and the bodies' values in PoolBody), the
  reference by its generated run read one operation at a time (RefValue).  The two spellings differ in how sums are
  grouped and in "times 0.25" against "divided by 4.0"; neither needs an entry to be finite, so the precondition is
  never opened.
-/
import proofs.«156101_j1580547974746_1_alg».proof.Defs
import proofs.«156101_j1580547974746_1_alg».proof.Proof.Gen.Kernel
import proofs.«156101_j1580547974746_1_alg».proof.Proof.Gen.Kernel.Skeleton
import proofs.«156101_j1580547974746_1_alg».proof.Proof.Gen.Kernel.Launch
import proofs.«156101_j1580547974746_1_alg».proof.Proof.Gen.Kernel.Points
import proofs.«156101_j1580547974746_1_alg».proof.Proof.Gen.Kernel.Frame
import proofs.«156101_j1580547974746_1_alg».proof.Proof.Gen.KernelIdeal
import proofs.«156101_j1580547974746_1_alg».proof.Proof.Gen.KernelIdeal.Skeleton
import proofs.«156101_j1580547974746_1_alg».proof.Proof.Gen.KernelIdeal.Launch
import proofs.«156101_j1580547974746_1_alg».proof.Proof.Gen.KernelIdeal.Points
import proofs.«156101_j1580547974746_1_alg».proof.Proof.Gen.KernelIdeal.Frame
import proofs.«156101_j1580547974746_1_alg».proof.Proof.Gen.ReferenceIdeal
import proofs.«156101_j1580547974746_1_alg».proof.Proof.Gen.Pre_finite_inputs
import proofs.«156101_j1580547974746_1_alg».proof.Proof.Gen.ReferenceIdeal.Read
import proofs.«156101_j1580547974746_1_alg».proof.Proof.PoolSpec
import proofs.«156101_j1580547974746_1_alg».proof.Proof.KernelRun
import proofs.«156101_j1580547974746_1_alg».proof.Proof.KernelValue
import proofs.«156101_j1580547974746_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with their result at the specification's result of the argument arrays, which agree. -/
theorem algebraic : Cert.algebraic_KernelIdeal_ReferenceIdeal := by
  intro m ρ m' ρ' _ hagree
  refine ⟨fun c => PoolSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.PoolValue.result_eq m ρ c), (h c).2⟩)
      (Cert.KernelIdeal.PoolRun.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
